-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x256x512 : Shape := ⟨4, ![8, 32, 256, 512]⟩
abbrev S_ : Shape := ⟨0, ![]⟩

class Facts : Prop where
  bcast_S_S8x32x256x512 : S_.BroadcastsInDim S8x32x256x512 (![] : Fin 0 → Fin S8x32x256x512.rank)
  reducesTo_S8x32x256x512_S_d0_1_2_3 : S8x32x256x512.ReducesTo [0, 1, 2, 3] S_
  h_S_ : 0 < S_.numel

variable [Facts]

def fn {F : FTy → Type} [FloatOps F] (main_arg0 : FVec F S8x32x256x512 .f32) : IVec S_ 1 :=
  let main_v0 : FVec F S8x32x256x512 .f32 := Host.absf main_arg0
  let main_cst : FVec F S_ .f32 := constant S_ .f32 0x7F800000#32
  let main_v1 : FVec F S8x32x256x512 .f32 := broadcastInDim S8x32x256x512 ![] bcast_S_S8x32x256x512 main_cst
  let main_v2 : IVec S8x32x256x512 1 := cmpf .olt main_v0 main_v1
  let main_c : IVec S_ 1 := constantI S_ 1 1#1
  let main_v3 : IVec S_ 1 := (fun x v => Host.reduce IntOp.andi x v reducesTo_S8x32x256x512_S_d0_1_2_3 h_S_) main_v2 main_c
  main_v3
-- ==== Kernel.lean ====
abbrev S8x32x256x512 : Shape := ⟨4, ![8, 32, 256, 512]⟩
abbrev S32768x1024 : Shape := ⟨2, ![32768, 1024]⟩
abbrev S256x128 : Shape := ⟨2, ![256, 128]⟩
abbrev S_ : Shape := ⟨0, ![]⟩
abbrev S32768x256 : Shape := ⟨2, ![32768, 256]⟩
abbrev S8x32x128x256 : Shape := ⟨4, ![8, 32, 128, 256]⟩
abbrev S2048x1024 : Shape := ⟨2, ![2048, 1024]⟩
abbrev S2048x256 : Shape := ⟨2, ![2048, 256]⟩
abbrev S2048x512 : Shape := ⟨2, ![2048, 512]⟩
abbrev S2048x128 : Shape := ⟨2, ![2048, 128]⟩

abbrev nBuf : Space → Nat
  | .hbm => 31
  | .vmem => 5
  | .smem => 0
  | _ => 0

abbrev bufTy : (tb : Table) → Fin (tcTables nBuf tb) → BufTy
  | .hbm, ⟨0, _⟩ => ⟨S8x32x256x512, .f32⟩
  | .hbm, ⟨1, _⟩ => ⟨S32768x1024, .f32⟩
  | .hbm, ⟨2, _⟩ => ⟨S256x128, .i32⟩
  | .hbm, ⟨3, _⟩ => ⟨S256x128, .i32⟩
  | .hbm, ⟨4, _⟩ => ⟨S_, .i32⟩
  | .hbm, ⟨5, _⟩ => ⟨S_, .i32⟩
  | .hbm, ⟨6, _⟩ => ⟨S256x128, .i32⟩
  | .hbm, ⟨7, _⟩ => ⟨S256x128, .i32⟩
  | .hbm, ⟨8, _⟩ => ⟨S256x128, .i32⟩
  | .hbm, ⟨9, _⟩ => ⟨S_, .i32⟩
  | .hbm, ⟨10, _⟩ => ⟨S256x128, .i32⟩
  | .hbm, ⟨11, _⟩ => ⟨S256x128, .i1⟩
  | .hbm, ⟨12, _⟩ => ⟨S256x128, .i32⟩
  | .hbm, ⟨13, _⟩ => ⟨S256x128, .i32⟩
  | .hbm, ⟨14, _⟩ => ⟨S_, .i32⟩
  | .hbm, ⟨15, _⟩ => ⟨S256x128, .i32⟩
  | .hbm, ⟨16, _⟩ => ⟨S256x128, .i1⟩
  | .hbm, ⟨17, _⟩ => ⟨S256x128, .i1⟩
  | .hbm, ⟨18, _⟩ => ⟨S_, .i32⟩
  | .hbm, ⟨19, _⟩ => ⟨S256x128, .i32⟩
  | .hbm, ⟨20, _⟩ => ⟨S256x128, .i32⟩
  | .hbm, ⟨21, _⟩ => ⟨S256x128, .i32⟩
  | .hbm, ⟨22, _⟩ => ⟨S256x128, .i1⟩
  | .hbm, ⟨23, _⟩ => ⟨S_, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S256x128, .bf16⟩
  | .hbm, ⟨29, _⟩ => ⟨S32768x256, .f32⟩
  | .hbm, ⟨30, _⟩ => ⟨S8x32x128x256, .f32⟩
  | .local _ .vmem, ⟨0, _⟩ => ⟨S2048x1024, .f32⟩
  | .local _ .vmem, ⟨1, _⟩ => ⟨S2048x1024, .f32⟩
  | .local _ .vmem, ⟨2, _⟩ => ⟨S256x128, .bf16⟩
  | .local _ .vmem, ⟨3, _⟩ => ⟨S2048x256, .f32⟩
  | .local _ .vmem, ⟨4, _⟩ => ⟨S2048x256, .f32⟩
  | _, _ => ⟨S8x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_c : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_c : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_call0_c_0 : Ref sig .tc := ⟨.hbm, 18, rfl⟩
abbrev main_call0_call0_v12 : Ref sig .tc := ⟨.hbm, 19, rfl⟩
abbrev main_call0_call0_v13 : Ref sig .tc := ⟨.hbm, 20, rfl⟩
abbrev main_call0_v3 : Ref sig .tc := ⟨.hbm, 21, rfl⟩
abbrev main_call0_v4 : Ref sig .tc := ⟨.hbm, 22, rfl⟩
abbrev main_call0_cst : Ref sig .tc := ⟨.hbm, 23, rfl⟩
abbrev main_call0_cst_0 : Ref sig .tc := ⟨.hbm, 24, rfl⟩
abbrev main_call0_call1_v0 : Ref sig .tc := ⟨.hbm, 25, rfl⟩
abbrev main_call0_call1_v1 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x32x256x512_S32768x1024 : S8x32x256x512.ShapeCasts S32768x1024
  bcast_S_S256x128 : S_.BroadcastsInDim S256x128 (![] : Fin 0 → Fin S256x128.rank)
  bitsLt_bf16_f32 : FTy.bits .bf16 < FTy.bits .f32
  shapeCasts_S32768x256_S8x32x128x256 : S32768x256.ShapeCasts S8x32x128x256
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S2048x1024_o0_0_S2048x512 : S2048x1024.Slices ![0, 0] S2048x512
  slices_S2048x1024_o0_512_S2048x512 : S2048x1024.Slices ![0, 512] S2048x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S2048x512_o0_0_S2048x256 : S2048x512.Slices ![0, 0] S2048x256
  inb_S2048x256_S2048x128_0_0 : ∀ a, (![0, 0] : Fin 2 → Nat) a + S2048x128.size a ≤ S2048x256.size a
  h_S2048x128 : 0 < S2048x128.numel
  slices_S2048x512_o0_256_S2048x256 : S2048x512.Slices ![0, 256] S2048x256
  inb_S2048x256_S2048x128_0_128 : ∀ a, (![0, 128] : Fin 2 → Nat) a + S2048x128.size a ≤ S2048x256.size a
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S32768x256.size a
  hwx0_2 : ∀ i : grid0.Coords, EltTy.bits .f32 = 32 ∨ (Rect.block (s := S32768x256) S2048x256.size (cc0_transform_2 i) (hinb0_2 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_call0_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x256x512 : Shape := ⟨4, ![8, 32, 256, 512]⟩
abbrev S32768x1024 : Shape := ⟨2, ![32768, 1024]⟩
abbrev S256x128 : Shape := ⟨2, ![256, 128]⟩
abbrev S_ : Shape := ⟨0, ![]⟩
abbrev S32768x256 : Shape := ⟨2, ![32768, 256]⟩
abbrev S8x32x128x256 : Shape := ⟨4, ![8, 32, 128, 256]⟩
abbrev S1024x1024 : Shape := ⟨2, ![1024, 1024]⟩
abbrev S1024x256 : Shape := ⟨2, ![1024, 256]⟩
abbrev S1024x128 : Shape := ⟨2, ![1024, 128]⟩

abbrev nBuf : Space → Nat
  | .hbm => 31
  | .vmem => 5
  | .smem => 0
  | _ => 0

abbrev bufTy : (tb : Table) → Fin (tcTables nBuf tb) → BufTy
  | .hbm, ⟨0, _⟩ => ⟨S8x32x256x512, .f32⟩
  | .hbm, ⟨1, _⟩ => ⟨S32768x1024, .f32⟩
  | .hbm, ⟨2, _⟩ => ⟨S256x128, .i32⟩
  | .hbm, ⟨3, _⟩ => ⟨S256x128, .i32⟩
  | .hbm, ⟨4, _⟩ => ⟨S_, .i32⟩
  | .hbm, ⟨5, _⟩ => ⟨S_, .i32⟩
  | .hbm, ⟨6, _⟩ => ⟨S256x128, .i32⟩
  | .hbm, ⟨7, _⟩ => ⟨S256x128, .i32⟩
  | .hbm, ⟨8, _⟩ => ⟨S256x128, .i32⟩
  | .hbm, ⟨9, _⟩ => ⟨S_, .i32⟩
  | .hbm, ⟨10, _⟩ => ⟨S256x128, .i32⟩
  | .hbm, ⟨11, _⟩ => ⟨S256x128, .i1⟩
  | .hbm, ⟨12, _⟩ => ⟨S256x128, .i32⟩
  | .hbm, ⟨13, _⟩ => ⟨S256x128, .i32⟩
  | .hbm, ⟨14, _⟩ => ⟨S_, .i32⟩
  | .hbm, ⟨15, _⟩ => ⟨S256x128, .i32⟩
  | .hbm, ⟨16, _⟩ => ⟨S256x128, .i1⟩
  | .hbm, ⟨17, _⟩ => ⟨S256x128, .i1⟩
  | .hbm, ⟨18, _⟩ => ⟨S_, .i32⟩
  | .hbm, ⟨19, _⟩ => ⟨S256x128, .i32⟩
  | .hbm, ⟨20, _⟩ => ⟨S256x128, .i32⟩
  | .hbm, ⟨21, _⟩ => ⟨S256x128, .i32⟩
  | .hbm, ⟨22, _⟩ => ⟨S256x128, .i1⟩
  | .hbm, ⟨23, _⟩ => ⟨S_, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S32768x256, .f32⟩
  | .hbm, ⟨30, _⟩ => ⟨S8x32x128x256, .f32⟩
  | .local _ .vmem, ⟨0, _⟩ => ⟨S1024x1024, .f32⟩
  | .local _ .vmem, ⟨1, _⟩ => ⟨S1024x1024, .f32⟩
  | .local _ .vmem, ⟨2, _⟩ => ⟨S256x128, .f32⟩
  | .local _ .vmem, ⟨3, _⟩ => ⟨S1024x256, .f32⟩
  | .local _ .vmem, ⟨4, _⟩ => ⟨S1024x256, .f32⟩
  | _, _ => ⟨S8x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_c : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_c : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_call0_c_0 : Ref sig .tc := ⟨.hbm, 18, rfl⟩
abbrev main_call0_call0_v12 : Ref sig .tc := ⟨.hbm, 19, rfl⟩
abbrev main_call0_call0_v13 : Ref sig .tc := ⟨.hbm, 20, rfl⟩
abbrev main_call0_v3 : Ref sig .tc := ⟨.hbm, 21, rfl⟩
abbrev main_call0_v4 : Ref sig .tc := ⟨.hbm, 22, rfl⟩
abbrev main_call0_cst : Ref sig .tc := ⟨.hbm, 23, rfl⟩
abbrev main_call0_cst_0 : Ref sig .tc := ⟨.hbm, 24, rfl⟩
abbrev main_call0_call1_v0 : Ref sig .tc := ⟨.hbm, 25, rfl⟩
abbrev main_call0_call1_v1 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x32x256x512_S32768x1024 : S8x32x256x512.ShapeCasts S32768x1024
  bcast_S_S256x128 : S_.BroadcastsInDim S256x128 (![] : Fin 0 → Fin S256x128.rank)
  shapeCasts_S32768x256_S8x32x128x256 : S32768x256.ShapeCasts S8x32x128x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x1024_S1024x256_0_0 : ∀ a, (![0, 0] : Fin 2 → Nat) a + S1024x256.size a ≤ S1024x1024.size a
  h_S1024x256 : 0 < S1024x256.numel
  shapeCasts_S1024x256_S1024x256 : S1024x256.ShapeCasts S1024x256
  inb_S1024x1024_S1024x256_0_512 : ∀ a, (![0, 512] : Fin 2 → Nat) a + S1024x256.size a ≤ S1024x1024.size a
  inb_S1024x256_S1024x128_0_0 : ∀ a, (![0, 0] : Fin 2 → Nat) a + S1024x128.size a ≤ S1024x256.size a
  h_S1024x128 : 0 < S1024x128.numel
  inb_S1024x1024_S1024x256_0_256 : ∀ a, (![0, 256] : Fin 2 → Nat) a + S1024x256.size a ≤ S1024x1024.size a
  inb_S1024x1024_S1024x256_0_768 : ∀ a, (![0, 768] : Fin 2 → Nat) a + S1024x256.size a ≤ S1024x1024.size a
  inb_S1024x256_S1024x128_0_128 : ∀ a, (![0, 128] : Fin 2 → Nat) a + S1024x128.size a ≤ S1024x256.size a
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.PoolSpec.lean ====
/-
  2×2 average pooling, stated once for both programs.

  Both programs first lay the input out as 32768 rows of 1024 values: a row holds an input row pair, the upper
  input row in columns 0–511 and the lower one in columns 512–1023. Output column `q` of a row lies in chunk
  `q / 128` at position `q % 128`; it is the contraction, over the 256 columns `k` of that chunk, of the pair
  sum `row (256·(q/128) + k) + row (512 + 256·(q/128) + k)` with the selection matrix entry `sel (k, q % 128)`.
  `rowOut` is that one entry; `poolG` applies it row by row to an array of any number of rows.

  The kernel computes the contraction twice, once on the pair sums and once on "pair sum minus pair sum", and adds
  the two. On the extended reals `a − a = 0` holds exactly when `a` is finite, so the second contraction vanishes
  for finite inputs (`split_sum`), and only there.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Pool

/-- The selection matrix's shape: 256 chunk columns by 128 output columns. -/
abbrev SelShape : Shape := ⟨2, ![256, 128]⟩

/-- One pooled entry: output column `q` from one row of 1024 values and the selection matrix. -/
def rowOut (row : Fin 1024 → EReal) (sel : SelShape.Idx → EReal) (q : Fin 256) : EReal :=
  ∑ k : Fin 256,
    (row ⟨q.val / 128 * 256 + k.val, by have := q.isLt; have := k.isLt; omega⟩
      + row ⟨512 + q.val / 128 * 256 + k.val, by have := q.isLt; have := k.isLt; omega⟩)
    * sel (ix2 k ⟨q.val % 128, Nat.mod_lt _ (by decide)⟩)

/-- `rowOut` depends only on the row's values, the matrix's values and the column's number. -/
theorem rowOut_congr {row row' : Fin 1024 → EReal} {sel sel' : SelShape.Idx → EReal} {q q' : Fin 256}
    (hrow : ∀ col, row col = row' col) (hsel : ∀ y, sel y = sel' y) (hq : q.val = q'.val) :
    rowOut row sel q = rowOut row' sel' q' := by
  obtain rfl : q = q' := Fin.ext hq
  rw [show row = row' from funext hrow, show sel = sel' from funext hsel]

/-- The pooled array of an array of `n` row pairs. -/
def poolG {n : ℕ} (X : (⟨2, ![n, 1024]⟩ : Shape).Idx → EReal) (sel : SelShape.Idx → EReal) :
    (⟨2, ![n, 256]⟩ : Shape).Idx → EReal :=
  fun y => rowOut (fun col => X (ix2 ⟨(y 0).val, idx2_lt0 y⟩ col)) sel ⟨(y 1).val, idx2_lt1 y⟩

/-- A finite extended real minus itself is zero. -/
theorem coe_sub_self (r : ℝ) : ((r : EReal) - (r : EReal)) = 0 := by
  rw [← EReal.coe_sub, sub_self, EReal.coe_zero]

/-- The sum of two finite extended reals is finite. -/
theorem finite_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- A contraction of finite values plus the contraction of their differences with themselves is the first
    contraction: each difference is zero, and zero times anything is zero. -/
theorem split_sum {ι : Type} [Fintype ι] (a s : ι → EReal) (ha : ∀ k, ∃ r : ℝ, a k = r) :
    (∑ k, a k * s k) + (∑ k, (a k - a k) * s k) = ∑ k, a k * s k := by
  have h0 : ∀ k, (a k - a k) * s k = 0 := fun k => by
    obtain ⟨r, hr⟩ := ha k
    rw [hr, coe_sub_self, zero_mul]
  simp only [h0, Finset.sum_const_zero, add_zero]

end Cert.Pool

end
-- ==== Proof.KernelBlock.lean ====
/-
  What one grid point of the idealized kernel leaves in its output block.

  The body reads a block of 2048 row pairs (2048 × 1024) and the selection matrix (256 × 128). It forms the pair
  sums (columns c and 512 + c added, 2048 × 512), and for each of the two chunks of 256 columns stores, into output
  columns 128·chunk … 128·chunk + 127, the matrix product of the chunk's pair sums with the selection matrix plus
  the matrix product of "pair sums minus pair sums" with it. Read at an index, each product is a sum over the
  chunk's 256 columns; for finite inputs the second sum is zero, and what is stored is `Pool.rowOut` of the row.
  The two stores tile the block, so the block as a whole is `Pool.poolG` of the input block.
-/
import proofs.«176003_g2000009566938201_pallasbulk_1132_20_alg».proof.Proof.Gen.KernelIdeal.Frame
import proofs.«176003_g2000009566938201_pallasbulk_1132_20_alg».proof.Proof.PoolSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen Cert.Pool

/-- The kernel's contraction record. -/
abbrev D := dot_S2048x256_S256x128_S2048x128_1_0_0_1_n_n

theorem D_rank : D.contr.rank = 1 := rfl
theorem D_size : D.contr.size ⟨0, by rw [D_rank]; exact Nat.one_pos⟩ = 256 := rfl

theorem lhsIdx_eq (p : Fin 2048) (j : Fin 128) (k : Fin 256) :
    D.lhsIdx (ix2 p j) ((contrEquiv1 D 256 D_rank D_size).symm k) = ix2 p k := by
  funext a
  apply Fin.ext
  match a with
  | ⟨0, _⟩ => simp [DotDims.lhsIdx, D, dot_S2048x256_S256x128_S2048x128_1_0_0_1_n_n]; rfl
  | ⟨1, _⟩ => exact (DotDims.lhsIdx_val_of_single (d := D) (cl := 1) rfl _ _).trans (contrEquiv1_symm_val D 256 D_rank D_size k)

theorem rhsIdx_eq (p : Fin 2048) (j : Fin 128) (k : Fin 256) :
    D.rhsIdx (ix2 p j) ((contrEquiv1 D 256 D_rank D_size).symm k) = ix2 k j := by
  funext a
  apply Fin.ext
  match a with
  | ⟨0, _⟩ => exact (DotDims.rhsIdx_val_of_single (d := D) (cr := 0) rfl _ _).trans (contrEquiv1_symm_val D 256 D_rank D_size k)
  | ⟨1, _⟩ => simp [DotDims.rhsIdx, D, dot_S2048x256_S256x128_S2048x128_1_0_0_1_n_n]; rfl

theorem matmul_at (lhs : FVec Ideal S2048x256 .bf16) (rhs : FVec Ideal S256x128 .bf16) (p : Fin 2048) (j : Fin 128) :
    matmul (F := Ideal) D none lhs rhs (constant S2048x128 .f32 0x00000000#32) (ix2 p j)
      = ∑ k : Fin 256, lhs (ix2 p k) * rhs (ix2 k j) := by
  simp only [matmul]
  rw [Ideal.matmul_constant_zero_apply, ← Equiv.sum_comp (contrEquiv1 D 256 D_rank D_size).symm]
  exact Finset.sum_congr rfl fun k _ => by rw [lhsIdx_eq, rhsIdx_eq]

theorem hz : (![0, 0] : Fin 2 → Nat) = fun _ => 0 := funext fun a => by fin_cases a <;> rfl

/-- The pair sums: column `c` of the upper input row added to column `c` of the lower one. -/
theorem pay1_at (v0 : Vec Ideal S2048x1024 .f32) (p : Fin 2048) (c : Fin 512) :
    k0_pay1 v0 (ix2 p c) = v0 (ix2 p ⟨c.val, by have := c.isLt; omega⟩) + v0 (ix2 p ⟨512 + c.val, by have := c.isLt; omega⟩) := by
  unfold k0_pay1
  rw [shapeCast_self]
  show addf _ _ _ = _
  rw [addf_apply]
  congr 1
  · refine extractStridedSlice_apply _ _ _ _ _ fun a => ?_
    match a with
    | ⟨0, _⟩ => simp
    | ⟨1, _⟩ => simp
  · refine extractStridedSlice_apply _ _ _ _ _ fun a => ?_
    match a with
    | ⟨0, _⟩ => simp
    | ⟨1, _⟩ => simp

/-- The rounded pair sums are the pair sums: a change of float format is the identity on the extended reals. -/
theorem pay2_at (v0 : Vec Ideal S2048x1024 .f32) (y : S2048x512.Idx) : k0_pay2 v0 y = k0_pay1 v0 y := rfl

/-- The rounding residue: the pair sums minus themselves. -/
theorem pay3_at (v0 : Vec Ideal S2048x1024 .f32) (y : S2048x512.Idx) : k0_pay3 v0 y = k0_pay1 v0 y - k0_pay1 v0 y := rfl

/-- The selection matrix as loaded. -/
theorem pay4_eq (v9 : Vec Ideal S256x128 .bf16) : k0_pay4 v9 = v9 := by
  unfold k0_pay4
  rw [shapeCast_self]

/-- A chunk of 256 columns cut out of a 2048 × 512 value, read at an index. -/
theorem chunk_at (off : Nat) (hoff : off = 0 ∨ off = 256) (h : S2048x512.Slices ![0, off] S2048x256) (w : FVec Ideal S2048x512 .bf16)
    (p : Fin 2048) (k : Fin 256) :
    extractStridedSlice S2048x256 ![0, off] w h (ix2 p k) = w (ix2 p ⟨off + k.val, by have := k.isLt; omega⟩) := by
  refine extractStridedSlice_apply _ _ _ _ _ fun a => ?_
  match a with
  | ⟨0, _⟩ => simp
  | ⟨1, _⟩ => simp

/-- What the first store writes at row `p`, column `j`: output column `j` of the row. -/
theorem pay5_at (v0 : Vec Ideal S2048x1024 .f32) (v9 : Vec Ideal S256x128 .bf16) (p : Fin 2048) (j : Fin 128)
    (hfin : ∀ col : Fin 1024, ∃ r : ℝ, v0 (ix2 p col) = r) :
    k0_pay5 v0 v9 (ix2 p j) = rowOut (fun col => v0 (ix2 p col)) v9 ⟨j.val, by have := j.isLt; omega⟩ := by
  unfold k0_pay5
  show addf (matmul D none _ _ _) (matmul D none _ _ _) _ = _
  rw [addf_apply, matmul_at, matmul_at, pay4_eq]
  simp only [chunk_at 0 (.inl rfl), pay2_at, pay3_at, pay1_at]
  rw [split_sum (fun k : Fin 256 => v0 (ix2 p ⟨0 + k.val, by have := k.isLt; omega⟩) + v0 (ix2 p ⟨512 + (0 + k.val), by have := k.isLt; omega⟩))
    (fun k : Fin 256 => v9 (ix2 k j)) (fun k => finite_add (hfin _) (hfin _))]
  unfold rowOut
  refine Finset.sum_congr rfl fun k _ => ?_
  have hj := j.isLt
  have e1 : (⟨0 + k.val, by have := k.isLt; omega⟩ : Fin 1024) = ⟨j.val / 128 * 256 + k.val, by have := k.isLt; omega⟩ := Fin.ext (by show 0 + k.val = j.val / 128 * 256 + k.val; omega)
  have e2 : (⟨512 + (0 + k.val), by have := k.isLt; omega⟩ : Fin 1024) = ⟨512 + j.val / 128 * 256 + k.val, by have := k.isLt; omega⟩ := Fin.ext (by show 512 + (0 + k.val) = 512 + j.val / 128 * 256 + k.val; omega)
  have e3 : j = ⟨j.val % 128, Nat.mod_lt _ (by decide)⟩ := Fin.ext (by show j.val = j.val % 128; omega)
  rw [e1, e2]
  exact congrArg (fun t => _ * v9 (ix2 k t)) e3

/-- What the second store writes at row `p`, column `j` of its rectangle: output column `128 + j` of the row. -/
theorem pay6_at (v0 : Vec Ideal S2048x1024 .f32) (v9 : Vec Ideal S256x128 .bf16) (p : Fin 2048) (j : Fin 128)
    (hfin : ∀ col : Fin 1024, ∃ r : ℝ, v0 (ix2 p col) = r) :
    k0_pay6 v0 v9 (ix2 p j) = rowOut (fun col => v0 (ix2 p col)) v9 ⟨128 + j.val, by have := j.isLt; omega⟩ := by
  unfold k0_pay6
  show addf (matmul D none _ _ _) (matmul D none _ _ _) _ = _
  rw [addf_apply, matmul_at, matmul_at, pay4_eq]
  simp only [chunk_at 256 (.inr rfl), pay2_at, pay3_at, pay1_at]
  rw [split_sum (fun k : Fin 256 => v0 (ix2 p ⟨256 + k.val, by have := k.isLt; omega⟩) + v0 (ix2 p ⟨512 + (256 + k.val), by have := k.isLt; omega⟩))
    (fun k : Fin 256 => v9 (ix2 k j)) (fun k => finite_add (hfin _) (hfin _))]
  unfold rowOut
  refine Finset.sum_congr rfl fun k _ => ?_
  have hj := j.isLt
  have e1 : (⟨256 + k.val, by have := k.isLt; omega⟩ : Fin 1024) = ⟨(128 + j.val) / 128 * 256 + k.val, by have := k.isLt; omega⟩ := Fin.ext (by show 256 + k.val = (128 + j.val) / 128 * 256 + k.val; omega)
  have e2 : (⟨512 + (256 + k.val), by have := k.isLt; omega⟩ : Fin 1024) = ⟨512 + (128 + j.val) / 128 * 256 + k.val, by have := k.isLt; omega⟩ := Fin.ext (by show 512 + (256 + k.val) = 512 + (128 + j.val) / 128 * 256 + k.val; omega)
  have e3 : j = ⟨(128 + j.val) % 128, Nat.mod_lt _ (by decide)⟩ := Fin.ext (by show j.val = (128 + j.val) % 128; omega)
  rw [e1, e2]
  exact congrArg (fun t => _ * v9 (ix2 k t)) e3

/-- THE BLOCK: for a finite input block, what the body leaves in the output block is the pooled block. -/
theorem out0_2_eq (x0 : Vec Ideal S2048x1024 .f32) (x1 : Vec Ideal S256x128 .bf16) (hfin : ∀ y, ∃ r : ℝ, x0 y = r) :
    out0_2 x0 x1 = poolG (n := 2048) x0 x1 := by
  funext y
  unfold out0_2
  rw [View.ld_unit_zero (S := S2048x1024) hz, View.ld_unit_zero (S := S256x128) hz]
  refine View.canon_apply_of_pieces (Val := Elt Ideal) (S := S2048x256) (e := .f32) (poolG (n := 2048) x0 x1) _ ?_ y (cover0_2 _ _ y)
  intro pc hpc x
  simp only [List.mem_cons, List.mem_nil_iff, or_false] at hpc
  rcases hpc with rfl | rfl
  · obtain ⟨p, j, rfl⟩ : ∃ (p : Fin 2048) (j : Fin 128), x = ix2 p j := ⟨x 0, x 1, eq_ix2 x⟩
    show k0_pay6 x0 x1 (ix2 p j) = _
    rw [pay6_at x0 x1 p j fun col => hfin _]
    unfold poolG
    refine rowOut_congr (fun col => congrArg x0 ?_) (fun _ => rfl) ?_
    · exact congrArg (fun t => ix2 t col) (Fin.ext (by simp [Rect.emb_apply, Rect.off_unit, Rect.stride_unit]))
    · simp [Rect.emb_apply, Rect.off_unit, Rect.stride_unit]
  · obtain ⟨p, j, rfl⟩ : ∃ (p : Fin 2048) (j : Fin 128), x = ix2 p j := ⟨x 0, x 1, eq_ix2 x⟩
    show k0_pay5 x0 x1 (ix2 p j) = _
    rw [pay5_at x0 x1 p j fun col => hfin _]
    unfold poolG
    refine rowOut_congr (fun col => congrArg x0 ?_) (fun _ => rfl) ?_
    · exact congrArg (fun t => ix2 t col) (Fin.ext (by simp [Rect.emb_apply, Rect.off_unit, Rect.stride_unit]))
    · simp [Rect.emb_apply, Rect.off_unit, Rect.stride_unit]

end Cert.KernelIdeal.Hand

end
-- ==== Proof.KernelArray.lean ====
/-
  From the kernel's blocks to its result array, and through the host lines around the region.

  Grid point `t` (of 16) reads rows 2048·t … 2048·t + 2047 of the 32768 × 1024 array of row pairs and the whole
  selection matrix, and writes back rows 2048·t … 2048·t + 2047 of the 32768 × 256 output array. Its block is the
  pooled block of its input block, and pooling is row by row, so what it writes back is the same rows of the pooled
  ARRAY; the sixteen blocks cover the output array (row `r` lies in block `r / 2048`), so after the region the output
  array is `Pool.poolG` of the two arrays the region found.
-/
import proofs.«176003_g2000009566938201_pallasbulk_1132_20_alg».proof.Proof.Gen.KernelIdeal.Frame
import proofs.«176003_g2000009566938201_pallasbulk_1132_20_alg».proof.Proof.PoolSpec
import proofs.«176003_g2000009566938201_pallasbulk_1132_20_alg».proof.Proof.KernelBlock
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Pool

variable (m : (ℓ : Loc nD τ sig) → Buf (Elt Ideal) ℓ) (ρ : Dev nD → PrngReg)

/-- The printed index maps over the grid: the row-pair window and the output window sit at block row `t`, block
    column 0; the selection matrix's window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array of row pairs as the region finds it. -/
abbrev X2 (c : Dev nD) : S32768x1024.Idx → EReal := V m c main_call0_v0
/-- The selection matrix as the region finds it. -/
abbrev SelA (c : Dev nD) : S256x128.Idx → EReal := V m c main_call0_v6

/-- WHAT POINT `t` WRITES BACK is block `t` of the pooled array, when the array of row pairs is finite. -/
theorem flushed_eq (c : Dev nD) (hfin : ∀ i, ∃ r : ℝ, X2 m c i = r) (t : Fin cfg0.N) :
    (dats m 0 c).flushed 2 t = ((cfg0.win 2).blk t).view.read (Elt Ideal) (poolG (n := 32768) (X2 m c) (SelA m c)) := by
  obtain ⟨e0, e1, e2, e3, e4, e5⟩ := idx_facts t
  have hN : cfg0.N = 16 := N_0
  have ht := t.isLt
  have rd0 : ∀ (p : Fin 2048) (col : Fin 1024), (iblk m c 0 t : Vec Ideal S2048x1024 .f32) (ix2 p col)
      = X2 m c (ix2 ⟨t.val * 2048 + p.val, by have := p.isLt; omega⟩ col) := by
    intro p col
    show V m c main_call0_v0 (((cfg0.win 0).blk t).view.emb (ix2 p col)) = V m c main_call0_v0 _
    refine congrArg (V m c main_call0_v0) (funext fun a => Fin.ext ?_)
    match a with
    | ⟨0, _⟩ => show win0_0.index t (0 : Fin 2) * 2048 + 1 * p.val = t.val * 2048 + p.val; omega
    | ⟨1, _⟩ => show win0_0.index t (1 : Fin 2) * 1024 + 1 * col.val = col.val; omega
  have rd1 : ∀ y : S256x128.Idx, (iblk m c 1 t : Vec Ideal S256x128 .bf16) y = SelA m c y := by
    intro y
    show V m c main_call0_v6 (((cfg0.win 1).blk t).view.emb y) = V m c main_call0_v6 y
    refine congrArg (V m c main_call0_v6) (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  show (cfg0.win 2).cut (grid0.coords t) ((dats m 0 c).after 2 t) = _
  rw [after0_2, out0_2_eq (iblk m c 0 t) (iblk m c 1 t) (fun y => by
    obtain ⟨p, col, rfl⟩ : ∃ (p : Fin 2048) (col : Fin 1024), y = ix2 p col := ⟨y 0, y 1, eq_ix2 y⟩
    rw [rd0]; exact hfin _)]
  funext j
  show poolG (n := 2048) (iblk m c 0 t) (iblk m c 1 t) j = poolG (n := 32768) (X2 m c) (SelA m c) (((cfg0.win 2).blk t).view.emb j)
  unfold poolG
  refine rowOut_congr (fun col => ?_) rd1 ?_
  · refine (rd0 _ col).trans (congrArg (fun r => X2 m c (ix2 r col)) (Fin.ext ?_))
    show t.val * 2048 + (j 0).val = win0_2.index t (0 : Fin 2) * 2048 + 1 * (j 0).val
    omega
  · show (j 1).val = win0_2.index t (1 : Fin 2) * 256 + 1 * (j 1).val
    omega

/-- An index of the output array is in point `t`'s block iff each coordinate is in the block's range on its axis. -/
theorem mem_blk (t : Fin cfg0.N) (i : S32768x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_call0_v7).slice (win0_2.rect t)).set ↔ _
  rw [View.set_slice_whole, Rect.mem_set_unit]
  exact Iff.rfl

/-- THE OUTPUT ARRAY after the region: the pooled array (row `r` is written back by point `r / 2048`). -/
theorem final (c : Dev nD) (hfin : ∀ i, ∃ r : ℝ, X2 m c i = r) :
    (dats m 0 c).arrAt 2 cfg0.N = poolG (n := 32768) (X2 m c) (SelA m c) :=
  (dats m 0 c).arrAt_eq_of_cover 2 (poolG (n := 32768) (X2 m c) (SelA m c)) (fun t _ => flushed_eq m c hfin t) fun i => by
    have hN : cfg0.N = 16 := N_0
    have hi0 : (i 0).val < 32768 := (i 0).isLt
    have hi1 : (i 1).val < 256 := (i 1).isLt
    obtain ⟨tt, htt⟩ : ∃ tt : Fin cfg0.N, tt.val = (i 0).val / 2048 := ⟨⟨(i 0).val / 2048, by omega⟩, rfl⟩
    obtain ⟨e0, e1, e2, e3, e4, e5⟩ := idx_facts tt
    refine ⟨tt, flush0_2 tt, ?_⟩
    rw [mem_blk]
    intro a
    match a with
    | ⟨0, _⟩ =>
      show win0_2.index tt (0 : Fin 2) * 2048 ≤ (i 0).val ∧ (i 0).val < win0_2.index tt (0 : Fin 2) * 2048 + 2048
      omega
    | ⟨1, _⟩ =>
      show win0_2.index tt (1 : Fin 2) * 256 ≤ (i 1).val ∧ (i 1).val < win0_2.index tt (1 : Fin 2) * 256 + 256
      omega

/-- The array of row pairs the region finds is the argument re-laid as 32768 × 1024 (the host's reshape before the region). -/
theorem X2_eq (c : Dev nD) : X2 m c = shapeCast S32768x1024 (m ((c : Thread nD τ).loc main_arg0) : S8x32x256x512.Idx → EReal)
    shapeCasts_S8x32x256x512_S32768x1024 := by
  show StableHlo.after hostOps0 (fun b => m (c, b)) (Proc.devRef .tc main_call0_v0) = _
  after_results
  rfl

/-- The program's result is the region's output array re-laid as 8 × 32 × 128 × 256 (the host's reshape after the region). -/
theorem tail_eq (c : Dev nD) : (Pipeline.afterTail₀ cfgs (dats m) 0 (V0 m) [hostOps1] c main_v0 : S8x32x128x256.Idx → EReal)
    = shapeCast S8x32x128x256 ((dats m 0 c).arrAt 2 cfg0.N : S32768x256.Idx → EReal) shapeCasts_S32768x256_S8x32x128x256 := by
  unfold Pipeline.afterTail₀
  show StableHlo.after hostOps1 _ (Proc.devRef .tc main_v0) = _
  after_results
  exact congrArg (fun A : S32768x256.Idx → EReal => shapeCast S8x32x128x256 A shapeCasts_S32768x256_S8x32x128x256)
    (Pipeline.withArrays_arr spec0 launch0.win.arr_inj c (V0 m c) (fun w => (dats m 0 c).arrAt w cfg0.N) 2)

/-- The argument array on core `c`. -/
abbrev Arg (c : Dev nD) : S8x32x256x512.Idx → EReal := m ((c : Thread nD τ).loc main_arg0)

/-- A re-laid array is finite when the array is: every entry of the one is an entry of the other. -/
theorem X2_finite (c : Dev nD) (hfin : ∀ i, ∃ r : ℝ, Arg m c i = r) :
    ∀ i, ∃ r : ℝ, X2 m c i = r := by
  intro i
  rw [X2_eq]
  exact hfin _

/-- THE RUN, READ: from a finite argument the idealized kernel ends with the pooled array of the re-laid argument and
    the selection matrix, re-laid as the result, and the argument unchanged. -/
theorem run (hfin : ∀ (c : Dev nD) i, ∃ r : ℝ, Arg m c i = r) :
    θ_run defs (onTc (τ := τ) (main (F := Ideal))) ⟨m, fun _ => 0, ρ⟩ fun r => ∀ c : Dev nD,
      r.2.mem ((c : Thread nD τ).loc main_v0)
        = shapeCast S8x32x128x256 (poolG (n := 32768)
            (shapeCast S32768x1024 (m ((c : Thread nD τ).loc main_arg0) : S8x32x256x512.Idx → EReal) shapeCasts_S8x32x256x512_S32768x1024)
            (SelA m c)) shapeCasts_S32768x256_S8x32x128x256
      ∧ r.2.mem ((c : Thread nD τ).loc main_arg0) = m ((c : Thread nD τ).loc main_arg0) :=
  (θ_run defs _ _).mono (fun r h c => ⟨by
      rw [(h c).2 main_v0 (Pipeline.mem_restRefs_of main_v0 (by decide) (by decide)), tail_eq, final m c (X2_finite m c (hfin c)), X2_eq],
      ((h c).2 main_arg0 (Pipeline.mem_restRefs_of main_arg0 (by decide) (by decide))).trans (W_main_arg0 m (dats m) c)⟩)
    (run_main m ρ)

end Cert.KernelIdeal.Hand

end
-- ==== Proof.RefBlock.lean ====
/-
  What one grid point of the idealized reference leaves in its output block.

  The body reads the selection matrix (256 × 128) and, for each of the two chunks, the chunk's 256 columns of the
  upper input rows (columns 256·chunk …) and of the lower input rows (columns 512 + 256·chunk …) of a block of 1024
  row pairs; it adds the two and stores the matrix product of the sum with the selection matrix into output columns
  128·chunk … 128·chunk + 127. Read at an index the product is a sum over the chunk's 256 columns: `Pool.rowOut` of
  the row. The two stores tile the block, so the block as a whole is `Pool.poolG` of the input block. No finiteness
  is needed on this side.
-/
import proofs.«176003_g2000009566938201_pallasbulk_1132_20_alg».proof.Proof.Gen.ReferenceIdeal.Frame
import proofs.«176003_g2000009566938201_pallasbulk_1132_20_alg».proof.Proof.PoolSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.Pool

/-- The reference's contraction record. -/
abbrev D := dot_S1024x256_S256x128_S1024x128_1_0_0_1_n_n

theorem D_rank : D.contr.rank = 1 := rfl
theorem D_size : D.contr.size ⟨0, by rw [D_rank]; exact Nat.one_pos⟩ = 256 := rfl

theorem lhsIdx_eq (p : Fin 1024) (j : Fin 128) (k : Fin 256) :
    D.lhsIdx (ix2 p j) ((contrEquiv1 D 256 D_rank D_size).symm k) = ix2 p k := by
  funext a
  apply Fin.ext
  match a with
  | ⟨0, _⟩ => simp [DotDims.lhsIdx, D, dot_S1024x256_S256x128_S1024x128_1_0_0_1_n_n]; rfl
  | ⟨1, _⟩ => exact (DotDims.lhsIdx_val_of_single (d := D) (cl := 1) rfl _ _).trans (contrEquiv1_symm_val D 256 D_rank D_size k)

theorem rhsIdx_eq (p : Fin 1024) (j : Fin 128) (k : Fin 256) :
    D.rhsIdx (ix2 p j) ((contrEquiv1 D 256 D_rank D_size).symm k) = ix2 k j := by
  funext a
  apply Fin.ext
  match a with
  | ⟨0, _⟩ => exact (DotDims.rhsIdx_val_of_single (d := D) (cr := 0) rfl _ _).trans (contrEquiv1_symm_val D 256 D_rank D_size k)
  | ⟨1, _⟩ => simp [DotDims.rhsIdx, D, dot_S1024x256_S256x128_S1024x128_1_0_0_1_n_n]; rfl

/-- The matrix product into a zero accumulator, read at row `p`, column `j`: the sum over the 256 contracted columns. -/
theorem matmul_at (lhs : FVec Ideal S1024x256 .f32) (rhs : FVec Ideal S256x128 .f32) (p : Fin 1024) (j : Fin 128) :
    matmul (F := Ideal) D (some .fp32) lhs rhs (constant S1024x128 .f32 0x00000000#32) (ix2 p j)
      = ∑ k : Fin 256, lhs (ix2 p k) * rhs (ix2 k j) := by
  simp only [matmul]
  rw [Ideal.matmul_constant_zero_apply, ← Equiv.sum_comp (contrEquiv1 D 256 D_rank D_size).symm]
  exact Finset.sum_congr rfl fun k _ => by rw [lhsIdx_eq, rhsIdx_eq]

theorem hz : (![0, 0] : Fin 2 → Nat) = fun _ => 0 := funext fun a => by fin_cases a <;> rfl

/-- The selection matrix as loaded. -/
theorem pay1_eq (v0 : Vec Ideal S256x128 .f32) : k0_pay1 v0 = v0 := by
  unfold k0_pay1
  rw [shapeCast_self]

/-- A load of 256 columns starting at column `off` of a 1024 × 1024 block, read at an index. -/
theorem ld_at (off : Nat) (inb : ∀ a, (![0, off] : Fin 2 → Nat) a + S1024x256.size a ≤ S1024x1024.size a) (hoff : off + 256 ≤ 1024)
    (X : Vec Ideal S1024x1024 .f32) (p : Fin 1024) (k : Fin 256) :
    View.ld X (Rect.unit (s := S1024x1024) ![0, off] S1024x256.size inb) (ix2 p k) = X (ix2 p ⟨off + k.val, by have := k.isLt; omega⟩) := by
  show X ((Rect.unit (s := S1024x1024) ![0, off] S1024x256.size inb).emb (ix2 p k)) = _
  refine congrArg X (funext fun a => Fin.ext ?_)
  match a with
  | ⟨0, _⟩ => simp [Rect.emb_apply, Rect.off_unit, Rect.stride_unit]
  | ⟨1, _⟩ => simp [Rect.emb_apply, Rect.off_unit, Rect.stride_unit]

/-- What a store writes at row `p`, column `j` of its rectangle, from the two loaded column groups. -/
theorem pay2_at (v0 : Vec Ideal S256x128 .f32) (v2 v4 : Vec Ideal S1024x256 .f32) (p : Fin 1024) (j : Fin 128) :
    k0_pay2 v0 v2 v4 (ix2 p j) = ∑ k : Fin 256, (v2 (ix2 p k) + v4 (ix2 p k)) * v0 (ix2 k j) := by
  unfold k0_pay2
  rw [shapeCast_self, shapeCast_self, pay1_eq]
  show matmul D (some .fp32) _ _ _ _ = _
  rw [matmul_at]
  rfl

theorem pay3_at (v0 : Vec Ideal S256x128 .f32) (v9 v11 : Vec Ideal S1024x256 .f32) (p : Fin 1024) (j : Fin 128) :
    k0_pay3 v0 v9 v11 (ix2 p j) = ∑ k : Fin 256, (v9 (ix2 p k) + v11 (ix2 p k)) * v0 (ix2 k j) := by
  unfold k0_pay3
  rw [shapeCast_self, shapeCast_self, pay1_eq]
  show matmul D (some .fp32) _ _ _ _ = _
  rw [matmul_at]
  rfl

/-- What the first store writes at row `p`, column `j`: output column `j` of the row. -/
theorem pay2_blk (x0 : Vec Ideal S1024x1024 .f32) (x1 : Vec Ideal S256x128 .f32) (p : Fin 1024) (j : Fin 128) :
    k0_pay2 x1 (View.ld x0 r0_1) (View.ld x0 r0_2) (ix2 p j)
      = rowOut (fun col => x0 (ix2 p col)) x1 ⟨j.val, by have := j.isLt; omega⟩ := by
  rw [pay2_at]
  simp only [ld_at 0 inb_S1024x1024_S1024x256_0_0 (by omega) x0, ld_at 512 inb_S1024x1024_S1024x256_0_512 (by omega) x0]
  unfold rowOut
  refine Finset.sum_congr rfl fun k _ => ?_
  have hj := j.isLt
  have e1 : (⟨0 + k.val, by have := k.isLt; omega⟩ : Fin 1024) = ⟨j.val / 128 * 256 + k.val, by have := k.isLt; omega⟩ := Fin.ext (by show 0 + k.val = j.val / 128 * 256 + k.val; omega)
  have e2 : (⟨512 + k.val, by have := k.isLt; omega⟩ : Fin 1024) = ⟨512 + j.val / 128 * 256 + k.val, by have := k.isLt; omega⟩ := Fin.ext (by show 512 + k.val = 512 + j.val / 128 * 256 + k.val; omega)
  have e3 : j = ⟨j.val % 128, Nat.mod_lt _ (by decide)⟩ := Fin.ext (by show j.val = j.val % 128; omega)
  rw [e1, e2]
  exact congrArg (fun t => _ * x1 (ix2 k t)) e3

/-- What the second store writes at row `p`, column `j` of its rectangle: output column `128 + j` of the row. -/
theorem pay3_blk (x0 : Vec Ideal S1024x1024 .f32) (x1 : Vec Ideal S256x128 .f32) (p : Fin 1024) (j : Fin 128) :
    k0_pay3 x1 (View.ld x0 r0_4) (View.ld x0 r0_5) (ix2 p j)
      = rowOut (fun col => x0 (ix2 p col)) x1 ⟨128 + j.val, by have := j.isLt; omega⟩ := by
  rw [pay3_at]
  simp only [ld_at 256 inb_S1024x1024_S1024x256_0_256 (by omega) x0, ld_at 768 inb_S1024x1024_S1024x256_0_768 (by omega) x0]
  unfold rowOut
  refine Finset.sum_congr rfl fun k _ => ?_
  have hj := j.isLt
  have e1 : (⟨256 + k.val, by have := k.isLt; omega⟩ : Fin 1024) = ⟨(128 + j.val) / 128 * 256 + k.val, by have := k.isLt; omega⟩ := Fin.ext (by show 256 + k.val = (128 + j.val) / 128 * 256 + k.val; omega)
  have e2 : (⟨768 + k.val, by have := k.isLt; omega⟩ : Fin 1024) = ⟨512 + (128 + j.val) / 128 * 256 + k.val, by have := k.isLt; omega⟩ := Fin.ext (by show 768 + k.val = 512 + (128 + j.val) / 128 * 256 + k.val; omega)
  have e3 : j = ⟨(128 + j.val) % 128, Nat.mod_lt _ (by decide)⟩ := Fin.ext (by show j.val = (128 + j.val) % 128; omega)
  rw [e1, e2]
  exact congrArg (fun t => _ * x1 (ix2 k t)) e3

/-- THE BLOCK: what the body leaves in the output block is the pooled block. -/
theorem out0_2_eq (x0 : Vec Ideal S1024x1024 .f32) (x1 : Vec Ideal S256x128 .f32) :
    out0_2 x0 x1 = poolG (n := 1024) x0 x1 := by
  funext y
  unfold out0_2
  rw [View.ld_unit_zero (S := S256x128) hz]
  refine View.canon_apply_of_pieces (Val := Elt Ideal) (S := S1024x256) (e := .f32) (poolG (n := 1024) x0 x1) _ ?_ y (cover0_2 _ _ y)
  intro pc hpc x
  simp only [List.mem_cons, List.mem_nil_iff, or_false] at hpc
  rcases hpc with rfl | rfl
  · obtain ⟨p, j, rfl⟩ : ∃ (p : Fin 1024) (j : Fin 128), x = ix2 p j := ⟨x 0, x 1, eq_ix2 x⟩
    show k0_pay3 x1 (View.ld x0 r0_4) (View.ld x0 r0_5) (ix2 p j) = _
    rw [pay3_blk]
    unfold poolG
    refine rowOut_congr (fun col => congrArg x0 ?_) (fun _ => rfl) ?_
    · exact congrArg (fun t => ix2 t col) (Fin.ext (by simp [Rect.emb_apply, Rect.off_unit, Rect.stride_unit]))
    · simp [Rect.emb_apply, Rect.off_unit, Rect.stride_unit]
  · obtain ⟨p, j, rfl⟩ : ∃ (p : Fin 1024) (j : Fin 128), x = ix2 p j := ⟨x 0, x 1, eq_ix2 x⟩
    show k0_pay2 x1 (View.ld x0 r0_1) (View.ld x0 r0_2) (ix2 p j) = _
    rw [pay2_blk]
    unfold poolG
    refine rowOut_congr (fun col => congrArg x0 ?_) (fun _ => rfl) ?_
    · exact congrArg (fun t => ix2 t col) (Fin.ext (by simp [Rect.emb_apply, Rect.off_unit, Rect.stride_unit]))
    · simp [Rect.emb_apply, Rect.off_unit, Rect.stride_unit]

end Cert.ReferenceIdeal.Hand

end
-- ==== Proof.RefArray.lean ====
/-
  From the reference's blocks to its result array, and through the host lines around the region.

  Grid point `t` (of 32) reads rows 1024·t … 1024·t + 1023 of the 32768 × 1024 array of row pairs and the whole
  selection matrix, and writes back rows 1024·t … 1024·t + 1023 of the 32768 × 256 output array. Its block is the
  pooled block of its input block, and pooling is row by row, so what it writes back is the same rows of the pooled
  ARRAY; the thirty-two blocks cover the output array (row `r` lies in block `r / 1024`), so after the region the
  output array is `Pool.poolG` of the two arrays the region found.
-/
import proofs.«176003_g2000009566938201_pallasbulk_1132_20_alg».proof.Proof.Gen.ReferenceIdeal.Frame
import proofs.«176003_g2000009566938201_pallasbulk_1132_20_alg».proof.Proof.PoolSpec
import proofs.«176003_g2000009566938201_pallasbulk_1132_20_alg».proof.Proof.RefBlock
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.Pool

variable (m : (ℓ : Loc nD τ sig) → Buf (Elt Ideal) ℓ) (ρ : Dev nD → PrngReg)

/-- The printed index maps over the grid: the row-pair window and the output window sit at block row `t`, block
    column 0; the selection matrix's window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array of row pairs as the region finds it. -/
abbrev X2 (c : Dev nD) : S32768x1024.Idx → EReal := V m c main_call0_v0
/-- The selection matrix as the region finds it. -/
abbrev SelA (c : Dev nD) : S256x128.Idx → EReal := V m c main_call0_v6

/-- WHAT POINT `t` WRITES BACK is block `t` of the pooled array. -/
theorem flushed_eq (c : Dev nD) (t : Fin cfg0.N) :
    (dats m 0 c).flushed 2 t = ((cfg0.win 2).blk t).view.read (Elt Ideal) (poolG (n := 32768) (X2 m c) (SelA m c)) := by
  obtain ⟨e0, e1, e2, e3, e4, e5⟩ := idx_facts t
  have hN : cfg0.N = 32 := N_0
  have ht := t.isLt
  have rd0 : ∀ (p : Fin 1024) (col : Fin 1024), (iblk m c 0 t : Vec Ideal S1024x1024 .f32) (ix2 p col)
      = X2 m c (ix2 ⟨t.val * 1024 + p.val, by have := p.isLt; omega⟩ col) := by
    intro p col
    show V m c main_call0_v0 (((cfg0.win 0).blk t).view.emb (ix2 p col)) = V m c main_call0_v0 _
    refine congrArg (V m c main_call0_v0) (funext fun a => Fin.ext ?_)
    match a with
    | ⟨0, _⟩ => show win0_0.index t (0 : Fin 2) * 1024 + 1 * p.val = t.val * 1024 + p.val; omega
    | ⟨1, _⟩ => show win0_0.index t (1 : Fin 2) * 1024 + 1 * col.val = col.val; omega
  have rd1 : ∀ y : S256x128.Idx, (iblk m c 1 t : Vec Ideal S256x128 .f32) y = SelA m c y := by
    intro y
    show V m c main_call0_v6 (((cfg0.win 1).blk t).view.emb y) = V m c main_call0_v6 y
    refine congrArg (V m c main_call0_v6) (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  show (cfg0.win 2).cut (grid0.coords t) ((dats m 0 c).after 2 t) = _
  rw [after0_2, out0_2_eq (iblk m c 0 t) (iblk m c 1 t)]
  funext j
  show poolG (n := 1024) (iblk m c 0 t) (iblk m c 1 t) j = poolG (n := 32768) (X2 m c) (SelA m c) (((cfg0.win 2).blk t).view.emb j)
  unfold poolG
  refine rowOut_congr (fun col => ?_) rd1 ?_
  · refine (rd0 _ col).trans (congrArg (fun r => X2 m c (ix2 r col)) (Fin.ext ?_))
    show t.val * 1024 + (j 0).val = win0_2.index t (0 : Fin 2) * 1024 + 1 * (j 0).val
    omega
  · show (j 1).val = win0_2.index t (1 : Fin 2) * 256 + 1 * (j 1).val
    omega

/-- An index of the output array is in point `t`'s block iff each coordinate is in the block's range on its axis. -/
theorem mem_blk (t : Fin cfg0.N) (i : S32768x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_call0_v7).slice (win0_2.rect t)).set ↔ _
  rw [View.set_slice_whole, Rect.mem_set_unit]
  exact Iff.rfl

/-- THE OUTPUT ARRAY after the region: the pooled array (row `r` is written back by point `r / 1024`). -/
theorem final (c : Dev nD) :
    (dats m 0 c).arrAt 2 cfg0.N = poolG (n := 32768) (X2 m c) (SelA m c) :=
  (dats m 0 c).arrAt_eq_of_cover 2 (poolG (n := 32768) (X2 m c) (SelA m c)) (fun t _ => flushed_eq m c t) fun i => by
    have hN : cfg0.N = 32 := N_0
    have hi0 : (i 0).val < 32768 := (i 0).isLt
    have hi1 : (i 1).val < 256 := (i 1).isLt
    obtain ⟨tt, htt⟩ : ∃ tt : Fin cfg0.N, tt.val = (i 0).val / 1024 := ⟨⟨(i 0).val / 1024, by omega⟩, rfl⟩
    obtain ⟨e0, e1, e2, e3, e4, e5⟩ := idx_facts tt
    refine ⟨tt, flush0_2 tt, ?_⟩
    rw [mem_blk]
    intro a
    match a with
    | ⟨0, _⟩ =>
      show win0_2.index tt (0 : Fin 2) * 1024 ≤ (i 0).val ∧ (i 0).val < win0_2.index tt (0 : Fin 2) * 1024 + 1024
      omega
    | ⟨1, _⟩ =>
      show win0_2.index tt (1 : Fin 2) * 256 ≤ (i 1).val ∧ (i 1).val < win0_2.index tt (1 : Fin 2) * 256 + 256
      omega

/-- The array of row pairs the region finds is the argument re-laid as 32768 × 1024 (the host's reshape before the region). -/
theorem X2_eq (c : Dev nD) : X2 m c = shapeCast S32768x1024 (m ((c : Thread nD τ).loc main_arg0) : S8x32x256x512.Idx → EReal)
    shapeCasts_S8x32x256x512_S32768x1024 := by
  show StableHlo.after hostOps0 (fun b => m (c, b)) (Proc.devRef .tc main_call0_v0) = _
  after_results
  rfl

/-- The program's result is the region's output array re-laid as 8 × 32 × 128 × 256 (the host's reshape after the region). -/
theorem tail_eq (c : Dev nD) : (Pipeline.afterTail₀ cfgs (dats m) 0 (V0 m) [hostOps1] c main_v0 : S8x32x128x256.Idx → EReal)
    = shapeCast S8x32x128x256 ((dats m 0 c).arrAt 2 cfg0.N : S32768x256.Idx → EReal) shapeCasts_S32768x256_S8x32x128x256 := by
  unfold Pipeline.afterTail₀
  show StableHlo.after hostOps1 _ (Proc.devRef .tc main_v0) = _
  after_results
  exact congrArg (fun A : S32768x256.Idx → EReal => shapeCast S8x32x128x256 A shapeCasts_S32768x256_S8x32x128x256)
    (Pipeline.withArrays_arr spec0 launch0.win.arr_inj c (V0 m c) (fun w => (dats m 0 c).arrAt w cfg0.N) 2)

/-- THE RUN, READ: the idealized reference ends with the pooled array of the re-laid argument and the selection
    matrix, re-laid as the result, and the argument unchanged. -/
theorem run :
    θ_run defs (onTc (τ := τ) (main (F := Ideal))) ⟨m, fun _ => 0, ρ⟩ fun r => ∀ c : Dev nD,
      r.2.mem ((c : Thread nD τ).loc main_v0)
        = shapeCast S8x32x128x256 (poolG (n := 32768)
            (shapeCast S32768x1024 (m ((c : Thread nD τ).loc main_arg0) : S8x32x256x512.Idx → EReal) shapeCasts_S8x32x256x512_S32768x1024)
            (SelA m c)) shapeCasts_S32768x256_S8x32x128x256
      ∧ r.2.mem ((c : Thread nD τ).loc main_arg0) = m ((c : Thread nD τ).loc main_arg0) :=
  (θ_run defs _ _).mono (fun r h c => ⟨by
      rw [(h c).2 main_v0 (Pipeline.mem_restRefs_of main_v0 (by decide) (by decide)), tail_eq, final m c, X2_eq],
      ((h c).2 main_arg0 (Pipeline.mem_restRefs_of main_arg0 (by decide) (by decide))).trans (W_main_arg0 m (dats m) c)⟩)
    (run_main m ρ)

end Cert.ReferenceIdeal.Hand

end
-- ==== Proof.Finite.lean ====
/-
  The precondition, read: every entry of the argument is a real number.

  The precondition says that the conjunction, over all entries `x` of the argument, of `|x| < +∞` is true. A
  conjunction that is true is true at every entry; and on the extended reals `max x (−x) < +∞` fails exactly at the
  two infinities, so each entry is (the image of) a real number.
-/
import proofs.«176003_g2000009566938201_pallasbulk_1132_20_alg».proof.Defs
import proofs.«176003_g2000009566938201_pallasbulk_1132_20_alg».proof.Proof.Gen.Pre_finite_inputs
import Idealize.ShloMosaic.Lib.ReduceAll
import Idealize.ShloMosaic.Lib.ValueIdx

noncomputable section

open Idealize.ShloMosaic Idealize.ShloMosaic.TcCoe Idealize.SL.Sem Idealize.ShloMosaic.ValueIdx

namespace Cert.Proof.Finite

/-- An extended real whose absolute value is below the float format's +∞ is a real number. -/
theorem real_of_abs_lt_inf (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- Every entry of an array of which the printed precondition holds is a real number. -/
theorem entries_real (A : FVec Ideal Cert.Pre_finite_inputs.S8x32x256x512 .f32)
    (h : Cert.Pre_finite_inputs.fn (F := Ideal) A = fun _ => 1#1) (i : Cert.Pre_finite_inputs.S8x32x256x512.Idx) :
    ∃ r : ℝ, A i = r := by
  have h0 := congrFun h ix0
  dsimp only [Cert.Pre_finite_inputs.fn] at h0
  have hi := Host.reduce_andi_all _ _ _ _ _ h0 i
  exact real_of_abs_lt_inf (A i) hi

/-- The idealized kernel's precondition: every entry of its argument, on every core, is a real number. -/
theorem of_pre_KernelIdeal (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x32x256x512.Idx) :
    ∃ r : ℝ, (m ((c.tc : Thread Cert.KernelIdeal.nD Cert.KernelIdeal.τ).loc Cert.KernelIdeal.main_arg0) : Cert.KernelIdeal.S8x32x256x512.Idx → EReal) i = ((r : ℝ) : EReal) :=
  entries_real _ (h c) i

end Cert.Proof.Finite

end
-- ==== Proof.SelEq.lean ====
/-
  Both programs build the same selection matrix.

  Each program's host lines before its region compute, from no input at all, the 256 × 128 matrix whose entry (i, j)
  is 0.25 where `floor(i / 2) = j` and 0 elsewhere: two index grids, the floor division spelt with its sign
  corrections, a comparison and a selection between the two constants. The two programs spell this chain with the
  same operations in the same order; the kernel's program then rounds the matrix to the narrower float format, which
  on the extended reals is the identity. So the matrices the two regions find are one and the same function.
-/
import proofs.«176003_g2000009566938201_pallasbulk_1132_20_alg».proof.Proof.Gen.KernelIdeal.Frame
import proofs.«176003_g2000009566938201_pallasbulk_1132_20_alg».proof.Proof.Gen.ReferenceIdeal.Frame
import Idealize.ShloMosaic.PureOps.Ideal
import Idealize.ShloMosaic.Lib.StableHlo.Run
import Idealize.ShloMosaic.Lib.Tactic

noncomputable section

open Idealize.ShloMosaic Idealize.ShloMosaic.TcCoe Idealize.SL.Sem

namespace Cert.Proof.SelEq

set_option maxHeartbeats 1000000 in
/-- The selection matrix the kernel's region finds is the one the reference's region finds, whatever the two memories. -/
theorem sel_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) :
    (Cert.KernelIdeal.Gen.V m c Cert.KernelIdeal.main_call0_v6 : Cert.KernelIdeal.S256x128.Idx → EReal)
      = (Cert.ReferenceIdeal.Gen.V m' c Cert.ReferenceIdeal.main_call0_v6 : Cert.ReferenceIdeal.S256x128.Idx → EReal) := by
  show StableHlo.after Cert.KernelIdeal.Gen.hostOps0 (fun b => m (c, b)) (Proc.devRef .tc Cert.KernelIdeal.main_call0_v6)
    = StableHlo.after Cert.ReferenceIdeal.Gen.hostOps0 (fun b => m' (c, b)) (Proc.devRef .tc Cert.ReferenceIdeal.main_call0_v6)
  after_results_simp
  rfl

end Cert.Proof.SelEq

end
-- ==== Proof.lean ====
/-
  2 × 2 average pooling of an 8 × 32 × 256 × 512 array: the kernel against its reference, over the extended reals.

  Both programs re-lay the argument as 32768 rows of 1024 values (a row is an input row pair), build the same
  256 × 128 selection matrix (0.25 where floor(i / 2) = j, else 0), run one region over row blocks, and re-lay the
  region's 32768 × 256 output as 8 × 32 × 128 × 256.

  * The reference's region (32 blocks of 1024 rows) stores, per chunk of 256 columns, the matrix product of the pair
    sums with the selection matrix (Proof/RefBlock.lean, Proof/RefArray.lean).
  * The kernel's region (16 blocks of 2048 rows) stores, per chunk, that product plus the product of "pair sums minus
    pair sums" with the selection matrix. On the extended reals the second product vanishes exactly when the pair sums
    are finite, which the precondition gives (Proof/Finite.lean, Proof/KernelBlock.lean, Proof/KernelArray.lean).
  * So both regions leave `Pool.poolG` (Proof/PoolSpec.lean) of the same two arrays (Proof/SelEq.lean for the
    selection matrix; the memories agree on the argument), and the results are equal entry by entry.

  The three frames are the generated frame certificates. The one rewrite of the idealization, a round trip through
  the narrower float format replaced by the value itself, is the rule's own statement.
-/
import proofs.«176003_g2000009566938201_pallasbulk_1132_20_alg».proof.Defs
import proofs.«176003_g2000009566938201_pallasbulk_1132_20_alg».proof.Proof.Gen.Kernel
import proofs.«176003_g2000009566938201_pallasbulk_1132_20_alg».proof.Proof.Gen.Kernel.Skeleton
import proofs.«176003_g2000009566938201_pallasbulk_1132_20_alg».proof.Proof.Gen.Kernel.Launch
import proofs.«176003_g2000009566938201_pallasbulk_1132_20_alg».proof.Proof.Gen.Kernel.Points
import proofs.«176003_g2000009566938201_pallasbulk_1132_20_alg».proof.Proof.Gen.Kernel.Frame
import proofs.«176003_g2000009566938201_pallasbulk_1132_20_alg».proof.Proof.Gen.KernelIdeal
import proofs.«176003_g2000009566938201_pallasbulk_1132_20_alg».proof.Proof.Gen.KernelIdeal.Skeleton
import proofs.«176003_g2000009566938201_pallasbulk_1132_20_alg».proof.Proof.Gen.KernelIdeal.Launch
import proofs.«176003_g2000009566938201_pallasbulk_1132_20_alg».proof.Proof.Gen.KernelIdeal.Points
import proofs.«176003_g2000009566938201_pallasbulk_1132_20_alg».proof.Proof.Gen.KernelIdeal.Frame
import proofs.«176003_g2000009566938201_pallasbulk_1132_20_alg».proof.Proof.Gen.ReferenceIdeal
import proofs.«176003_g2000009566938201_pallasbulk_1132_20_alg».proof.Proof.Gen.ReferenceIdeal.Skeleton
import proofs.«176003_g2000009566938201_pallasbulk_1132_20_alg».proof.Proof.Gen.ReferenceIdeal.Launch
import proofs.«176003_g2000009566938201_pallasbulk_1132_20_alg».proof.Proof.Gen.ReferenceIdeal.Points
import proofs.«176003_g2000009566938201_pallasbulk_1132_20_alg».proof.Proof.Gen.ReferenceIdeal.Frame
import proofs.«176003_g2000009566938201_pallasbulk_1132_20_alg».proof.Proof.Gen.Pre_finite_inputs
import Idealize.ShloMosaic.Adequacy
import Idealize.ShloMosaic.Init
import proofs.«176003_g2000009566938201_pallasbulk_1132_20_alg».proof.Proof.KernelArray
import proofs.«176003_g2000009566938201_pallasbulk_1132_20_alg».proof.Proof.RefArray
import proofs.«176003_g2000009566938201_pallasbulk_1132_20_alg».proof.Proof.Finite
import proofs.«176003_g2000009566938201_pallasbulk_1132_20_alg».proof.Proof.SelEq

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization's one rewrite: a value rounded to the narrower format and widened back is, on the extended
    reals, the value. -/
theorem preserves : Cert.preserves_Kernel_KernelIdeal := IdealRules.truncf_extf.statement _ .f32 .bf16

/-- From memories agreeing on the argument, and a finite argument, both idealized programs end with the pooled array
    of the re-laid argument and the selection matrix, re-laid as the result. -/
theorem algebraic : Cert.algebraic_KernelIdeal_ReferenceIdeal := by
  intro m ρ m' ρ' hpre hagree
  refine ⟨_, Cert.KernelIdeal.Hand.run m ρ (fun c i => Cert.Proof.Finite.of_pre_KernelIdeal m hpre c i), ?_⟩
  refine (θ_run Cert.ReferenceIdeal.defs _ _).mono (fun _ h c => ⟨(h c).1.trans ?_, (h c).2⟩)
    (Cert.ReferenceIdeal.Hand.run m' ρ')
  have hsel : Cert.ReferenceIdeal.Hand.SelA m' c = Cert.KernelIdeal.Hand.SelA m c := (Cert.Proof.SelEq.sel_eq m m' c).symm
  rw [hagree c, hsel]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
